-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S16x2048x2048 : Shape := ⟨3, ![16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S16x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S2x16x2048x64 : Shape := ⟨4, ![2, 16, 2048, 64]⟩
abbrev S16x2048x2048 : Shape := ⟨3, ![16, 2048, 2048]⟩
abbrev S2x16x2048x2048 : Shape := ⟨4, ![2, 16, 2048, 2048]⟩
abbrev S2x1x512x64 : Shape := ⟨4, ![2, 1, 512, 64]⟩
abbrev S2x1x2048x64 : Shape := ⟨4, ![2, 1, 2048, 64]⟩
abbrev S1x512x2048 : Shape := ⟨3, ![1, 512, 2048]⟩
abbrev S2x1x512x2048 : Shape := ⟨4, ![2, 1, 512, 2048]⟩
abbrev S512x2048 : Shape := ⟨2, ![512, 2048]⟩
abbrev S1x1x512x64 : Shape := ⟨4, ![1, 1, 512, 64]⟩
abbrev S512x64 : Shape := ⟨2, ![512, 64]⟩
abbrev S1x1x2048x64 : Shape := ⟨4, ![1, 1, 2048, 64]⟩
abbrev S2048x64 : Shape := ⟨2, ![2048, 64]⟩
abbrev S64x2048 : Shape := ⟨2, ![64, 2048]⟩
abbrev S512 : Shape := ⟨1, ![512]⟩
abbrev S512x1 : Shape := ⟨2, ![512, 1]⟩
abbrev S1x1x512x2048 : Shape := ⟨4, ![1, 1, 512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S16x2048x2048, .f32⟩
  | .hbm, ⟨4, _⟩ => ⟨S2x16x2048x64, .f32⟩
  | .hbm, ⟨5, _⟩ => ⟨S2x16x2048x2048, .f32⟩
  | .local _ .vmem, ⟨0, _⟩ => ⟨S2x1x512x64, .f32⟩
  | .local _ .vmem, ⟨1, _⟩ => ⟨S2x1x512x64, .f32⟩
  | .local _ .vmem, ⟨2, _⟩ => ⟨S2x1x2048x64, .f32⟩
  | .local _ .vmem, ⟨3, _⟩ => ⟨S2x1x2048x64, .f32⟩
  | .local _ .vmem, ⟨4, _⟩ => ⟨S2x1x2048x64, .f32⟩
  | .local _ .vmem, ⟨5, _⟩ => ⟨S2x1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S2x1x512x64, .f32⟩
  | .local _ .vmem, ⟨9, _⟩ => ⟨S2x1x512x64, .f32⟩
  | .local _ .vmem, ⟨10, _⟩ => ⟨S2x1x512x2048, .f32⟩
  | .local _ .vmem, ⟨11, _⟩ => ⟨S2x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2x1x512x64_S1x1x512x64_0_0_0_0 : ∀ a, (![0, 0, 0, 0] : Fin 4 → Nat) a + S1x1x512x64.size a ≤ S2x1x512x64.size a
  h_S1x1x512x64 : 0 < S1x1x512x64.numel
  shapeCasts_S1x1x512x64_S512x64 : S1x1x512x64.ShapeCasts S512x64
  inb_S2x1x2048x64_S1x1x2048x64_0_0_0_0 : ∀ a, (![0, 0, 0, 0] : Fin 4 → Nat) a + S1x1x2048x64.size a ≤ S2x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S2x1x512x2048_S1x1x512x2048_0_0_0_0 : ∀ a, (![0, 0, 0, 0] : Fin 4 → Nat) a + S1x1x512x2048.size a ≤ S2x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  inb_S2x1x512x64_S1x1x512x64_1_0_0_0 : ∀ a, (![1, 0, 0, 0] : Fin 4 → Nat) a + S1x1x512x64.size a ≤ S2x1x512x64.size a
  inb_S2x1x2048x64_S1x1x2048x64_1_0_0_0 : ∀ a, (![1, 0, 0, 0] : Fin 4 → Nat) a + S1x1x2048x64.size a ≤ S2x1x2048x64.size a
  inb_S2x1x512x2048_S1x1x512x2048_1_0_0_0 : ∀ a, (![1, 0, 0, 0] : Fin 4 → Nat) a + S1x1x512x2048.size a ≤ S2x1x512x2048.size a
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x64.size a ≤ S2x16x2048x64.size a
  hwx0_0 : ∀ i : grid0.Coords, EltTy.bits .f32 = 32 ∨ (Rect.block (s := S2x16x2048x64) S2x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x2048x64.size a ≤ S2x16x2048x64.size a
  hwx0_1 : ∀ i : grid0.Coords, EltTy.bits .f32 = 32 ∨ (Rect.block (s := S2x16x2048x64) S2x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x2048x64.size a ≤ S2x16x2048x64.size a
  hwx0_2 : ∀ i : grid0.Coords, EltTy.bits .f32 = 32 ∨ (Rect.block (s := S2x16x2048x64) S2x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x512x64.size a ≤ S2x16x2048x64.size a
  hwx0_4 : ∀ i : grid0.Coords, EltTy.bits .f32 = 32 ∨ (Rect.block (s := S2x16x2048x64) S2x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x512x2048.size a ≤ S2x16x2048x2048.size a
  hwx0_5 : ∀ i : grid0.Coords, EltTy.bits .f32 = 32 ∨ (Rect.block (s := S2x16x2048x2048) S2x1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S2x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S16x2048x2048 : Shape := ⟨3, ![16, 2048, 2048]⟩
abbrev S2x16x2048x2048 : Shape := ⟨4, ![2, 16, 2048, 2048]⟩
abbrev S_ : Shape := ⟨0, ![]⟩
abbrev S1x16x2048x2048 : Shape := ⟨4, ![1, 16, 2048, 2048]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S16x2048x2048, .f32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S1x16x2048x2048, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S16x2048x2048_S1x16x2048x2048_1_2_3 : S16x2048x2048.BroadcastsInDim S1x16x2048x2048 (![1, 2, 3] : Fin 3 → Fin S1x16x2048x2048.rank)
  bcast_S1x16x2048x2048_S2x16x2048x2048_0_1_2_3 : S1x16x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Scaled dot-product attention with an additive position bias, one query row at a time, on the extended reals.

  For a query row q ∈ ℝ̄^64, keys K ∈ ℝ̄^(2048×64) and a bias row β ∈ ℝ̄^2048 the score of key k is
  (∑_d q_d · K_{k,d}) · (1/8) + β_k; the attention weights are the softmax of the scores along k, taken in its
  usual shifted form exp(s_k − max s) / ∑_k' exp(s_k' − max s) with the maximum folded from −∞; the output row is
  ∑_k w_k · V_{k,d}. The whole-array functions read each row off the [2,16,2048,64] operands and the
  [16,2048,2048] bias, which does not depend on the batch coordinate.

  Also here: the two float constants the scale is spelt with. 64.0 denotes the real 64, whose square root is 8, and
  dividing any extended real by 8 is multiplying it by 1/8, which is what the pattern of 0.125 denotes.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The scale -/

/-- The pattern of `64.0` denotes the real 64. -/
theorem ofBits_64 : Ideal.ofBits .f32 0x42800000#32 = ((64 : ℝ) : EReal) := by
  simp [Ideal.ofBits, Ideal.ieee, -EReal.coe_mul]; norm_num

/-- The pattern of `0.125` denotes the real 1/8. -/
theorem ofBits_eighth : Ideal.ofBits .f32 0x3E000000#32 = ((1 / 8 : ℝ) : EReal) := by
  simp [Ideal.ofBits, Ideal.ieee, -EReal.coe_mul]; norm_num

/-- √64 = 8. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- Dividing by √64 is multiplying by 1/8, on every extended real. -/
theorem div_sqrt_64 (x : EReal) :
    Ideal.div x (Ideal.sqrt (Ideal.ofBits .f32 0x42800000#32)) = x * Ideal.ofBits .f32 0x3E000000#32 := by
  rw [sqrt_64, ofBits_eighth]
  exact Ideal.div_coe (by norm_num) x

/-! ## One row -/

/-- The scaled, biased scores of one query row against every key. -/
def scoreRow (qrow : Fin 64 → EReal) (kmat : Fin 2048 → Fin 64 → EReal) (brow : Fin 2048 → EReal) (k : Fin 2048) : EReal :=
  (∑ d : Fin 64, qrow d * kmat k d) * Ideal.ofBits .f32 0x3E000000#32 + brow k

/-- The shifted softmax of a row of scores. -/
def softmaxRow (s : Fin 2048 → EReal) (k : Fin 2048) : EReal :=
  Ideal.div (Ideal.exp (s k - (Finset.univ : Finset (Fin 2048)).fold max (Ideal.ofBits .f32 0xFF800000#32) s))
    (∑ k' : Fin 2048, Ideal.exp (s k' - (Finset.univ : Finset (Fin 2048)).fold max (Ideal.ofBits .f32 0xFF800000#32) s))

/-- The attention weights of one query row. -/
def attnRow (qrow : Fin 64 → EReal) (kmat : Fin 2048 → Fin 64 → EReal) (brow : Fin 2048 → EReal) : Fin 2048 → EReal :=
  softmaxRow (scoreRow qrow kmat brow)

/-- The weighted sum of the value rows. -/
def outRow (w : Fin 2048 → EReal) (vmat : Fin 2048 → Fin 64 → EReal) (d : Fin 64) : EReal :=
  ∑ k : Fin 2048, w k * vmat k d

/-! ## The whole arrays -/

abbrev SQ : Shape := ⟨4, ![2, 16, 2048, 64]⟩
abbrev SB : Shape := ⟨3, ![16, 2048, 2048]⟩
abbrev SW : Shape := ⟨4, ![2, 16, 2048, 2048]⟩

/-- The attention weights of batch `b`, head `h`, query position `n`. -/
def weights (q k : SQ.Idx → EReal) (bias : SB.Idx → EReal) (b : Fin 2) (h : Fin 16) (n : Fin 2048) : Fin 2048 → EReal :=
  attnRow (fun d => q (ix4 b h n d)) (fun k' d => k (ix4 b h k' d)) (fun k' => bias (ix3 h n k'))

/-- The attention matrix, entry by entry. -/
def attnArr (q k : SQ.Idx → EReal) (bias : SB.Idx → EReal) : SW.Idx → EReal :=
  fun i => weights q k bias (i 0) (i 1) (i 2) (i 3)

/-- The attention output, entry by entry. -/
def outArr (q k v : SQ.Idx → EReal) (bias : SB.Idx → EReal) : SQ.Idx → EReal :=
  fun i => outRow (weights q k bias (i 0) (i 1) (i 2)) (fun k' d => v (ix4 (i 0) (i 1) k' d)) (i 3)

end Cert.Attn

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibRowMax.lean ====
/-
  The maximum along the last axis of an array of extended reals, read at an index: the fold of `max` over the
  entries along that axis, started from the value the initial pattern denotes. Stated for the kernel-side
  reduction of an [a, b] array to [a] and for the host-side reduction of an [a, b, c] array to [a, b]; both are
  folds over the same finite set of positions, so a row maximum taken on a tile and the one taken on the whole
  array meet in one expression.
-/
import Idealize.ShloMosaic.PureOps.Ideal.Laws
import Idealize.ShloMosaic.Lib.ValueIdx

noncomputable section

namespace Cert.Lib.RowMax

open Idealize.ShloMosaic Idealize.ShloMosaic.ValueIdx

/-- A maximum over the last axis of an `[a, b]` array, read at `r`: the fold of `max` over row `r`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f : Fin b → EReal => (Finset.univ : Finset (Fin b)).fold max (Ideal.ofBits φ acc) f)
    (funext fun k => congrArg src (funext fun ax => Fin.ext (by
      match ax with
      | ⟨0, _⟩ => rfl
      | ⟨1, _⟩ => rfl)))

/-- The same for a single-precision array whose printed initial pattern is minus infinity's, the proof argument
    typed as printed. -/
theorem rowMax_f32_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) :=
  rowMax_apply src _ h hφ hacc r

/-- The host's reduction by `max` over the last axis of an `[a, b, c]` array from a scalar initial value, read at
    `(p, q)`: the fold of `max` over the entries `(p, q, ·)`. -/
theorem hostRowMax3_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin c)).fold max (init ix0) (fun k => x (ix3 p q k)) := by
  refine (Host.reduce_eq_fold_single FloatOps.maximumf x init h' h hu (ix2 p q)).trans ?_
  have e0 : init (Shape.Idx.first hu) = init ix0 := congrArg init (funext fun ax => ax.elim0)
  rw [e0]
  exact congrArg (fun f : Fin c → EReal => (Finset.univ : Finset (Fin c)).fold max (init ix0) f)
    (funext fun k => congrArg x (funext fun ax => Fin.ext (by
      match ax with
      | ⟨0, _⟩ => rfl
      | ⟨1, _⟩ => rfl
      | ⟨2, _⟩ => rfl)))

/-- A fold of `max` started from `b` is at least `b`, so taking the maximum with `b` once more changes nothing. -/
theorem max_fold_self {n : ℕ} (b : EReal) (s : Fin n → EReal) :
    max b ((Finset.univ : Finset (Fin n)).fold max b s) = (Finset.univ : Finset (Fin n)).fold max b s :=
  max_eq_right ((Finset.le_fold_max b).2 (Or.inl le_rfl))

end Cert.Lib.RowMax

end
-- ==== Proof.LibSoftmaxRows.lean ====
/-
  A row softmax of an [a, b] array of extended reals in its usual five steps — row maximum, subtraction, exponential,
  row sum, division — with the row statistics laid out as a column [a, 1] and repeated along each row, read at an
  index (r, k): the exponential of the entry less the row's maximum, over the sum of those exponentials along the row.
-/
import Idealize.ShloMosaic.PureOps.Ideal.Laws
import Idealize.ShloMosaic.Lib.ValueIdx
import proofs.«172684_j88888643158481_2_alg».proof.Proof.LibRowOps
import proofs.«172684_j88888643158481_2_alg».proof.Proof.LibRowMax

noncomputable section

namespace Cert.Lib.SoftmaxRows

open Idealize.ShloMosaic Idealize.ShloMosaic.ValueIdx Cert.Lib.RowOps Cert.Lib.RowMax

/-- A vector of row statistics laid out as a column and repeated along each row reads, at `(r, c)`, the statistic of row `r`. -/
theorem keepdims_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (c : Fin b) :
    broadcastTo ⟨2, ![a, b]⟩ (shapeCast ⟨2, ![a, 1]⟩ v hc) hb (ix2 r c) = v (ix1 r) :=
  (broadcastTo_a1_ab_apply _ hb r c).trans (shapeCast_a_a1_apply v hc r 0)

/-- The five-step row softmax read at `(r, k)`. -/
theorem softmax_rows_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r k)
      = Ideal.div
          (Ideal.exp (s (ix2 r k) - (Finset.univ : Finset (Fin b)).fold max (Ideal.ofBits .f32 0xFF800000#32) (fun k' => s (ix2 r k'))))
          (∑ k' : Fin b, Ideal.exp (s (ix2 r k')
            - (Finset.univ : Finset (Fin b)).fold max (Ideal.ofBits .f32 0xFF800000#32) (fun k'' => s (ix2 r k'')))) := by
  have hM : ∀ k' : Fin b,
      broadcastTo ⟨2, ![a, b]⟩ (shapeCast ⟨2, ![a, 1]⟩
          (multiReduction .maximumf [1] ⟨1, ![a]⟩ s 0xFF800000#32 hr hφ hmax) hc) hb (ix2 r k')
        = (Finset.univ : Finset (Fin b)).fold max (Ideal.ofBits .f32 0xFF800000#32) (fun k'' => s (ix2 r k'')) :=
    fun k' => (keepdims_apply _ hc hb r k').trans (rowMax_f32_apply s hr hφ hmax r)
  have hE : ∀ k' : Fin b,
      exp (subf s (broadcastTo ⟨2, ![a, b]⟩ (shapeCast ⟨2, ![a, 1]⟩
          (multiReduction .maximumf [1] ⟨1, ![a]⟩ s 0xFF800000#32 hr hφ hmax) hc) hb)) (ix2 r k')
        = Ideal.exp (s (ix2 r k') - (Finset.univ : Finset (Fin b)).fold max (Ideal.ofBits .f32 0xFF800000#32) (fun k'' => s (ix2 r k''))) :=
    fun k' => congrArg (fun m => Ideal.exp (s (ix2 r k') - m)) (hM k')
  refine (congrArg (Ideal.div _) ((keepdims_apply _ hc hb r k).trans (rowSum_f32_apply _ hr hφ hadd r))).trans ?_
  rw [hE k]
  exact congrArg (Ideal.div _) (Finset.sum_congr rfl fun k' _ => hE k')

end Cert.Lib.SoftmaxRows

end
-- ==== Proof.LibUnitAxes.lean ====
/-
  A block `[1, 1, a, b]` viewed as the matrix `[a, b]` (a reshape that drops two leading unit axes) reads, at
  `(r, k)`, the block at `(0, 0, r, k)`: both positions are the same place in row-major order.
-/
import Idealize.ShloMosaic.Lib.ValueIdx
import Idealize.ShloMosaic.Lib.Pipeline.Value

namespace Cert.Lib.UnitAxes

open Idealize.ShloMosaic Idealize.ShloMosaic.ValueIdx

theorem dropUnits_apply {α : Type} {a b : ℕ} (x : (⟨4, ![1, 1, a, b]⟩ : Shape).Idx → α)
    (h : (⟨4, ![1, 1, a, b]⟩ : Shape).ShapeCasts ⟨2, ![a, b]⟩) (r : Fin a) (k : Fin b) :
    shapeCast ⟨2, ![a, b]⟩ x h (ix2 r k) = x (ix4 (0 : Fin 1) (0 : Fin 1) r k) :=
  shapeCast_apply x h _ _ (by
    rw [Shape.rowMajor_val_two, Shape.rowMajor_val_four]
    show ((0 * 1 + 0) * a + r.val) * b + k.val = r.val * b + k.val
    simp only [Nat.zero_mul, Nat.zero_add])

end Cert.Lib.UnitAxes
-- ==== Proof.KernelTile.lean ====
/-
  What the kernel body computes for one batch entry of one tile of 512 query rows, read entry by entry.

  The body forms the tile's scores as the product of the [512, 64] query tile with the transposed [2048, 64] key block,
  times 1/8, plus the [512, 2048] bias tile; takes the softmax of each row by its five steps; stores the weights, and
  stores their product with the [2048, 64] value block. Read at (r, k) the weights are the attention weights of query row
  r of the tile, and read at (r, d) the product is the attention output of that row: the matrix unit's products are plain
  sums over the contracted axis, the transpose swaps the key block's two coordinates, and the reshapes between
  [1, 1, a, b] and [a, b] keep row-major positions.
-/
import proofs.«172684_j88888643158481_2_alg».proof.Proof.Gen.KernelIdeal.Skeleton
import proofs.«172684_j88888643158481_2_alg».proof.Proof.AttnSpec
import proofs.«172684_j88888643158481_2_alg».proof.Proof.LibSoftmaxRows
import proofs.«172684_j88888643158481_2_alg».proof.Proof.LibRowOps
import proofs.«172684_j88888643158481_2_alg».proof.Proof.LibUnitAxes
import Idealize.ShloMosaic.Lib.ValueLayout
import Idealize.ShloMosaic.Lib.Pipeline.Value

noncomputable section

namespace Cert.Attn.Tile

open Cert.KernelIdeal Cert.KernelIdeal.Gen Idealize.ShloMosaic Idealize.ShloMosaic.ValueIdx Cert.Attn

/-- The two contractions are plain matrix products. -/
theorem dims_qk : dot_S512x64_S64x2048_S512x2048_1_0_0_1_n_n = DotDims.plain 512 64 2048 := rfl
theorem dims_wv : dot_S512x2048_S2048x64_S512x64_1_0_0_1_n_n = DotDims.plain 512 2048 64 := rfl

/-- A matrix [a, b] viewed as a block [1, 1, a, b] reads, at (u, u', r, k), the matrix at (r, k). -/
theorem addUnits_apply {α : Type} {a b : ℕ} (x : (⟨2, ![a, b]⟩ : Shape).Idx → α)
    (h : (⟨2, ![a, b]⟩ : Shape).ShapeCasts ⟨4, ![1, 1, a, b]⟩) (u u' : Fin 1) (r : Fin a) (k : Fin b) :
    shapeCast ⟨4, ![1, 1, a, b]⟩ x h (ix4 u u' r k) = x (ix2 r k) :=
  shapeCast_apply x h _ _ (by
    have hu : u.val = 0 := by omega
    have hu' : u'.val = 0 := by omega
    rw [Shape.rowMajor_val_two, Shape.rowMajor_val_four]
    show r.val * b + k.val = ((u.val * 1 + u'.val) * a + r.val) * b + k.val
    rw [hu, hu']
    simp only [Nat.zero_mul, Nat.zero_add])

/-- The tile's scores as the body spells them: the product of the query tile with the transposed key block into zeros,
    scaled by the splat of 0.125, plus the bias tile. -/
def scoreVec (bias : FVec Ideal S512x2048 .f32) (qv : Vec Ideal S1x1x512x64 .f32) (kv : Vec Ideal S1x1x2048x64 .f32) :
    FVec Ideal S512x2048 .f32 :=
  addf (mulf (matmul dot_S512x64_S64x2048_S512x2048_1_0_0_1_n_n (some .fp32)
      (shapeCast S512x64 qv shapeCasts_S1x1x512x64_S512x64 : FVec Ideal S512x64 .f32)
      (transpose S64x2048 [1, 0] (shapeCast S2048x64 kv shapeCasts_S1x1x2048x64_S2048x64 : FVec Ideal S2048x64 .f32)
        transposes_S2048x64_p1_0_S64x2048 : FVec Ideal S64x2048 .f32)
      (constant (F := Ideal) S512x2048 .f32 0x00000000#32))
    (broadcast S512x2048 (Scalar.ofBits (F := Ideal) .f32 0x3E000000#32))) bias

/-- The tile's scores at (r, k): the scores of query row r. -/
theorem scoreVec_apply (bias : FVec Ideal S512x2048 .f32) (qv : Vec Ideal S1x1x512x64 .f32) (kv : Vec Ideal S1x1x2048x64 .f32)
    (r : Fin 512) (k : Fin 2048) :
    scoreVec bias qv kv (ix2 r k)
      = scoreRow (fun d => qv (ix4 (0 : Fin 1) (0 : Fin 1) r d)) (fun k' d => kv (ix4 (0 : Fin 1) (0 : Fin 1) k' d))
          (fun k' => bias (ix2 r k')) k := by
  unfold scoreVec scoreRow
  show matmul dot_S512x64_S64x2048_S512x2048_1_0_0_1_n_n (some .fp32) _ _ _ (ix2 r k) * Ideal.ofBits .f32 0x3E000000#32 + bias (ix2 r k) = _
  rw [dims_qk, Cert.Lib.RowOps.matmul_plain_zero_apply]
  refine congrArg (fun z => z * Ideal.ofBits .f32 0x3E000000#32 + bias (ix2 r k)) (Finset.sum_congr rfl fun d _ => ?_)
  rw [Cert.Lib.UnitAxes.dropUnits_apply, transpose_ix2_apply, Cert.Lib.UnitAxes.dropUnits_apply]

/-- The body's weights are the five-step row softmax of the tile's scores. -/
theorem pay1_eq (bias : FVec Ideal S512x2048 .f32) (qv : Vec Ideal S1x1x512x64 .f32) (kv : Vec Ideal S1x1x2048x64 .f32) :
    k0_pay1 bias qv kv
      = divf
        (exp (subf (scoreVec bias qv kv) (broadcastTo S512x2048 (shapeCast S512x1
          (multiReduction .maximumf [1] S512 (scoreVec bias qv kv) 0xFF800000#32 reduces_S512x2048_S512 (.inl rfl) rfl)
          shapeCasts_S512_S512x1) broadcasts_S512x1_S512x2048)))
        (broadcastTo S512x2048 (shapeCast S512x1
          (multiReduction .add [1] S512
            (exp (subf (scoreVec bias qv kv) (broadcastTo S512x2048 (shapeCast S512x1
              (multiReduction .maximumf [1] S512 (scoreVec bias qv kv) 0xFF800000#32 reduces_S512x2048_S512 (.inl rfl) rfl)
              shapeCasts_S512_S512x1) broadcasts_S512x1_S512x2048)))
            0x00000000#32 reduces_S512x2048_S512 (.inl rfl) rfl) shapeCasts_S512_S512x1) broadcasts_S512x1_S512x2048) := rfl

/-- The body's weights at (r, k): the attention weights of query row r of the tile. -/
theorem pay1_apply (bias : FVec Ideal S512x2048 .f32) (qv : Vec Ideal S1x1x512x64 .f32) (kv : Vec Ideal S1x1x2048x64 .f32)
    (r : Fin 512) (k : Fin 2048) :
    k0_pay1 bias qv kv (ix2 r k)
      = attnRow (fun d => qv (ix4 (0 : Fin 1) (0 : Fin 1) r d)) (fun k' d => kv (ix4 (0 : Fin 1) (0 : Fin 1) k' d))
          (fun k' => bias (ix2 r k')) k := by
  rw [pay1_eq]
  refine (Cert.Lib.SoftmaxRows.softmax_rows_apply (scoreVec bias qv kv) reduces_S512x2048_S512 (.inl rfl) rfl rfl
    shapeCasts_S512_S512x1 broadcasts_S512x1_S512x2048 r k).trans ?_
  simp only [scoreVec_apply]
  rfl

/-- The stored weights block at (u, u', r, k). -/
theorem pay2_apply (bias : FVec Ideal S512x2048 .f32) (qv : Vec Ideal S1x1x512x64 .f32) (kv : Vec Ideal S1x1x2048x64 .f32)
    (u u' : Fin 1) (r : Fin 512) (k : Fin 2048) :
    k0_pay2 bias qv kv (ix4 u u' r k)
      = attnRow (fun d => qv (ix4 (0 : Fin 1) (0 : Fin 1) r d)) (fun k' d => kv (ix4 (0 : Fin 1) (0 : Fin 1) k' d))
          (fun k' => bias (ix2 r k')) k := by
  unfold k0_pay2
  exact (addUnits_apply _ shapeCasts_S512x2048_S1x1x512x2048 u u' r k).trans (pay1_apply bias qv kv r k)

/-- The stored output block at (u, u', r, d): the weights of row r contracted with the value block. -/
theorem pay3_apply (bias : FVec Ideal S512x2048 .f32) (qv : Vec Ideal S1x1x512x64 .f32) (kv vv : Vec Ideal S1x1x2048x64 .f32)
    (u u' : Fin 1) (r : Fin 512) (d : Fin 64) :
    k0_pay3 bias qv kv vv (ix4 u u' r d)
      = outRow (attnRow (fun d' => qv (ix4 (0 : Fin 1) (0 : Fin 1) r d')) (fun k' d' => kv (ix4 (0 : Fin 1) (0 : Fin 1) k' d'))
          (fun k' => bias (ix2 r k'))) (fun k' d' => vv (ix4 (0 : Fin 1) (0 : Fin 1) k' d')) d := by
  unfold k0_pay3 outRow
  refine (addUnits_apply _ shapeCasts_S512x64_S1x1x512x64 u u' r d).trans ?_
  rw [dims_wv, Cert.Lib.RowOps.matmul_plain_zero_apply]
  refine Finset.sum_congr rfl fun k _ => ?_
  rw [pay1_apply, Cert.Lib.UnitAxes.dropUnits_apply]

/-- The bias tile as the body reshapes it, at (r, k). -/
theorem pay4_apply (bv : Vec Ideal S1x512x2048 .f32) (r : Fin 512) (k : Fin 2048) :
    k0_pay4 bv (ix2 r k) = bv (ix3 (0 : Fin 1) r k) := by
  unfold k0_pay4
  exact shapeCast_1ab_ab_apply bv shapeCasts_S1x512x2048_S512x2048 r k

/-- The first batch entry's stores are the second's with the bias tile reshaped on the way. -/
theorem pay6_eq (bv : Vec Ideal S1x512x2048 .f32) (qv : Vec Ideal S1x1x512x64 .f32) (kv : Vec Ideal S1x1x2048x64 .f32) :
    k0_pay6 bv qv kv = k0_pay2 (k0_pay4 bv) qv kv := rfl
theorem pay7_eq (bv : Vec Ideal S1x512x2048 .f32) (qv : Vec Ideal S1x1x512x64 .f32) (kv vv : Vec Ideal S1x1x2048x64 .f32) :
    k0_pay7 bv qv kv vv = k0_pay3 (k0_pay4 bv) qv kv vv := rfl

end Cert.Attn.Tile

end
-- ==== Proof.KernelStep.lean ====
/-
  The body's two output buffers after one grid step, as functions of the step's four input blocks.

  A step holds both batch entries of one head's tile of 512 query rows: the query block [2, 1, 512, 64], the key and
  value blocks [2, 1, 2048, 64] and the bias tile [1, 512, 2048]. The body fills each output buffer by two stores, one
  per batch entry, each through the rectangle of that entry, from loads through the same entry's rectangles of the
  inputs. So the weights buffer at (b, 0, r, k) holds the attention weights of query row (b, r) of the block against
  the keys of entry b and bias row r, and the output buffer at (b, 0, r, d) those weights contracted with the values of
  entry b.
-/
import proofs.«172684_j88888643158481_2_alg».proof.Proof.Gen.KernelIdeal.Frame
import proofs.«172684_j88888643158481_2_alg».proof.Proof.KernelTile
import proofs.«172684_j88888643158481_2_alg».proof.Proof.AttnSpec
import Idealize.ShloMosaic.Lib.Pipeline.Value

noncomputable section

namespace Cert.Attn.Step

open Cert.KernelIdeal Cert.KernelIdeal.Gen Idealize.ShloMosaic Idealize.ShloMosaic.ValueIdx Cert.Attn Cert.Attn.Tile

/-! ## Where each rectangle of the body puts an index of its own -/

theorem emb_r0_0 (u : Fin 1) (r : Fin 512) (k : Fin 2048) :
    r0_0.emb (ix3 u r k) = ix3 (0 : Fin 1) r k := by
  funext a
  apply Fin.ext
  have hu : u.val = 0 := by omega
  match a with
  | ⟨0, _⟩ => show 0 + 1 * u.val = 0; omega
  | ⟨1, _⟩ => show 0 + 1 * r.val = r.val; omega
  | ⟨2, _⟩ => show 0 + 1 * k.val = k.val; omega

theorem emb_r0_1 (u u' : Fin 1) (r : Fin 512) (k : Fin 64) :
    r0_1.emb (ix4 u u' r k) = ix4 (0 : Fin 2) (0 : Fin 1) r k := by
  funext a
  apply Fin.ext
  have hu : u.val = 0 := by omega
  have hu' : u'.val = 0 := by omega
  match a with
  | ⟨0, _⟩ => show 0 + 1 * u.val = 0; omega
  | ⟨1, _⟩ => show 0 + 1 * u'.val = 0; omega
  | ⟨2, _⟩ => show 0 + 1 * r.val = r.val; omega
  | ⟨3, _⟩ => show 0 + 1 * k.val = k.val; omega

theorem emb_r0_2 (u u' : Fin 1) (r : Fin 2048) (k : Fin 64) :
    r0_2.emb (ix4 u u' r k) = ix4 (0 : Fin 2) (0 : Fin 1) r k := by
  funext a
  apply Fin.ext
  have hu : u.val = 0 := by omega
  have hu' : u'.val = 0 := by omega
  match a with
  | ⟨0, _⟩ => show 0 + 1 * u.val = 0; omega
  | ⟨1, _⟩ => show 0 + 1 * u'.val = 0; omega
  | ⟨2, _⟩ => show 0 + 1 * r.val = r.val; omega
  | ⟨3, _⟩ => show 0 + 1 * k.val = k.val; omega

theorem emb_r0_3 (u u' : Fin 1) (r : Fin 512) (k : Fin 2048) :
    r0_3.emb (ix4 u u' r k) = ix4 (0 : Fin 2) (0 : Fin 1) r k := by
  funext a
  apply Fin.ext
  have hu : u.val = 0 := by omega
  have hu' : u'.val = 0 := by omega
  match a with
  | ⟨0, _⟩ => show 0 + 1 * u.val = 0; omega
  | ⟨1, _⟩ => show 0 + 1 * u'.val = 0; omega
  | ⟨2, _⟩ => show 0 + 1 * r.val = r.val; omega
  | ⟨3, _⟩ => show 0 + 1 * k.val = k.val; omega

theorem emb_r0_4 (u u' : Fin 1) (r : Fin 512) (k : Fin 64) :
    r0_4.emb (ix4 u u' r k) = ix4 (1 : Fin 2) (0 : Fin 1) r k := by
  funext a
  apply Fin.ext
  have hu : u.val = 0 := by omega
  have hu' : u'.val = 0 := by omega
  match a with
  | ⟨0, _⟩ => show 1 + 1 * u.val = 1; omega
  | ⟨1, _⟩ => show 0 + 1 * u'.val = 0; omega
  | ⟨2, _⟩ => show 0 + 1 * r.val = r.val; omega
  | ⟨3, _⟩ => show 0 + 1 * k.val = k.val; omega

theorem emb_r0_5 (u u' : Fin 1) (r : Fin 2048) (k : Fin 64) :
    r0_5.emb (ix4 u u' r k) = ix4 (1 : Fin 2) (0 : Fin 1) r k := by
  funext a
  apply Fin.ext
  have hu : u.val = 0 := by omega
  have hu' : u'.val = 0 := by omega
  match a with
  | ⟨0, _⟩ => show 1 + 1 * u.val = 1; omega
  | ⟨1, _⟩ => show 0 + 1 * u'.val = 0; omega
  | ⟨2, _⟩ => show 0 + 1 * r.val = r.val; omega
  | ⟨3, _⟩ => show 0 + 1 * k.val = k.val; omega

theorem emb_r0_6 (u u' : Fin 1) (r : Fin 512) (k : Fin 2048) :
    r0_6.emb (ix4 u u' r k) = ix4 (1 : Fin 2) (0 : Fin 1) r k := by
  funext a
  apply Fin.ext
  have hu : u.val = 0 := by omega
  have hu' : u'.val = 0 := by omega
  match a with
  | ⟨0, _⟩ => show 1 + 1 * u.val = 1; omega
  | ⟨1, _⟩ => show 0 + 1 * u'.val = 0; omega
  | ⟨2, _⟩ => show 0 + 1 * r.val = r.val; omega
  | ⟨3, _⟩ => show 0 + 1 * k.val = k.val; omega

/-! ## The two buffers -/

/-- The weights buffer after a step, as one function of the step's blocks. -/
def blockW (x0 : Vec Ideal S2x1x512x64 .f32) (x1 : Vec Ideal S2x1x2048x64 .f32) (x3 : Vec Ideal S1x512x2048 .f32) :
    S2x1x512x2048.Idx → EReal :=
  fun y => attnRow (fun d => x0 (ix4 (y 0) (0 : Fin 1) (y 2) d)) (fun k' d => x1 (ix4 (y 0) (0 : Fin 1) k' d))
    (fun k' => x3 (ix3 (0 : Fin 1) (y 2) k')) (y 3)

/-- The output buffer after a step, as one function of the step's blocks. -/
def blockO (x0 : Vec Ideal S2x1x512x64 .f32) (x1 x2 : Vec Ideal S2x1x2048x64 .f32) (x3 : Vec Ideal S1x512x2048 .f32) :
    S2x1x512x64.Idx → EReal :=
  fun y => outRow (attnRow (fun d => x0 (ix4 (y 0) (0 : Fin 1) (y 2) d)) (fun k' d => x1 (ix4 (y 0) (0 : Fin 1) k' d))
    (fun k' => x3 (ix3 (0 : Fin 1) (y 2) k'))) (fun k' d => x2 (ix4 (y 0) (0 : Fin 1) k' d)) (y 3)

/-- Both stores of the weights buffer write the restriction of `blockW` to their rectangle. -/
theorem out0_5_apply (x0 : Vec Ideal S2x1x512x64 .f32) (x1 x2 : Vec Ideal S2x1x2048x64 .f32) (x3 : Vec Ideal S1x512x2048 .f32)
    (y : S2x1x512x2048.Idx) : out0_5 x0 x1 x2 x3 y = blockW x0 x1 x3 y := by
  unfold out0_5
  refine View.canon_apply_of_pieces (Val := Elt Ideal) (blockW x0 x1 x3) _ ?_ y (cover0_5 _ _ y)
  intro p hp x
  rcases List.mem_cons.mp hp with rfl | hp
  · obtain ⟨u, u', r, k, rfl⟩ : ∃ (u u' : Fin 1) (r : Fin 512) (k : Fin 2048), x = ix4 u u' r k :=
      ⟨x 0, x 1, x 2, x 3, eq_ix4 (n0 := 1) (n1 := 1) (n2 := 512) (n3 := 2048) x⟩
    show k0_pay2 (k0_pay4 (View.ld x3 r0_0)) (View.ld x0 r0_4) (View.ld x1 r0_5) (ix4 u u' r k)
      = blockW x0 x1 x3 (r0_6.emb (ix4 u u' r k))
    rw [emb_r0_6, pay2_apply]
    simp only [pay4_apply]
    show attnRow (fun d => x0 (r0_4.emb (ix4 (0 : Fin 1) (0 : Fin 1) r d))) (fun k' d => x1 (r0_5.emb (ix4 (0 : Fin 1) (0 : Fin 1) k' d)))
      (fun k' => x3 (r0_0.emb (ix3 (0 : Fin 1) r k'))) k = _
    simp only [emb_r0_4, emb_r0_5, emb_r0_0]
    rfl
  · obtain rfl := List.mem_singleton.mp hp
    obtain ⟨u, u', r, k, rfl⟩ : ∃ (u u' : Fin 1) (r : Fin 512) (k : Fin 2048), x = ix4 u u' r k :=
      ⟨x 0, x 1, x 2, x 3, eq_ix4 (n0 := 1) (n1 := 1) (n2 := 512) (n3 := 2048) x⟩
    show k0_pay6 (View.ld x3 r0_0) (View.ld x0 r0_1) (View.ld x1 r0_2) (ix4 u u' r k)
      = blockW x0 x1 x3 (r0_3.emb (ix4 u u' r k))
    rw [emb_r0_3, pay6_eq, pay2_apply]
    simp only [pay4_apply]
    show attnRow (fun d => x0 (r0_1.emb (ix4 (0 : Fin 1) (0 : Fin 1) r d))) (fun k' d => x1 (r0_2.emb (ix4 (0 : Fin 1) (0 : Fin 1) k' d)))
      (fun k' => x3 (r0_0.emb (ix3 (0 : Fin 1) r k'))) k = _
    simp only [emb_r0_1, emb_r0_2, emb_r0_0]
    rfl

/-- Both stores of the output buffer write the restriction of `blockO` to their rectangle. -/
theorem out0_4_apply (x0 : Vec Ideal S2x1x512x64 .f32) (x1 x2 : Vec Ideal S2x1x2048x64 .f32) (x3 : Vec Ideal S1x512x2048 .f32)
    (y : S2x1x512x64.Idx) : out0_4 x0 x1 x2 x3 y = blockO x0 x1 x2 x3 y := by
  unfold out0_4
  refine View.canon_apply_of_pieces (Val := Elt Ideal) (blockO x0 x1 x2 x3) _ ?_ y (cover0_4 _ _ y)
  intro p hp x
  rcases List.mem_cons.mp hp with rfl | hp
  · obtain ⟨u, u', r, k, rfl⟩ : ∃ (u u' : Fin 1) (r : Fin 512) (k : Fin 64), x = ix4 u u' r k :=
      ⟨x 0, x 1, x 2, x 3, eq_ix4 (n0 := 1) (n1 := 1) (n2 := 512) (n3 := 64) x⟩
    show k0_pay3 (k0_pay4 (View.ld x3 r0_0)) (View.ld x0 r0_4) (View.ld x1 r0_5) (View.ld x2 r0_5) (ix4 u u' r k)
      = blockO x0 x1 x2 x3 (r0_4.emb (ix4 u u' r k))
    rw [emb_r0_4, pay3_apply]
    simp only [pay4_apply]
    show outRow (attnRow (fun d => x0 (r0_4.emb (ix4 (0 : Fin 1) (0 : Fin 1) r d))) (fun k' d => x1 (r0_5.emb (ix4 (0 : Fin 1) (0 : Fin 1) k' d)))
      (fun k' => x3 (r0_0.emb (ix3 (0 : Fin 1) r k')))) (fun k' d => x2 (r0_5.emb (ix4 (0 : Fin 1) (0 : Fin 1) k' d))) k = _
    simp only [emb_r0_4, emb_r0_5, emb_r0_0]
    rfl
  · obtain rfl := List.mem_singleton.mp hp
    obtain ⟨u, u', r, k, rfl⟩ : ∃ (u u' : Fin 1) (r : Fin 512) (k : Fin 64), x = ix4 u u' r k :=
      ⟨x 0, x 1, x 2, x 3, eq_ix4 (n0 := 1) (n1 := 1) (n2 := 512) (n3 := 64) x⟩
    show k0_pay7 (View.ld x3 r0_0) (View.ld x0 r0_1) (View.ld x1 r0_2) (View.ld x2 r0_2) (ix4 u u' r k)
      = blockO x0 x1 x2 x3 (r0_1.emb (ix4 u u' r k))
    rw [emb_r0_1, pay7_eq, pay3_apply]
    simp only [pay4_apply]
    show outRow (attnRow (fun d => x0 (r0_1.emb (ix4 (0 : Fin 1) (0 : Fin 1) r d))) (fun k' d => x1 (r0_2.emb (ix4 (0 : Fin 1) (0 : Fin 1) k' d)))
      (fun k' => x3 (r0_0.emb (ix3 (0 : Fin 1) r k')))) (fun k' d => x2 (r0_2.emb (ix4 (0 : Fin 1) (0 : Fin 1) k' d))) k = _
    simp only [emb_r0_1, emb_r0_2, emb_r0_0]
    rfl

/-! ## A step's buffers against the whole arrays -/

/-- If the step's blocks are the rows of the whole arrays that entry `i` of the attention matrix depends on, the
    weights buffer at `y` is the attention matrix at `i`. -/
theorem blockW_eq (q k : SQ.Idx → EReal) (bias : SB.Idx → EReal)
    (x0 : Vec Ideal S2x1x512x64 .f32) (x1 : Vec Ideal S2x1x2048x64 .f32) (x3 : Vec Ideal S1x512x2048 .f32)
    (y : S2x1x512x2048.Idx) (i : SW.Idx)
    (h0 : ∀ d, x0 (ix4 (y 0) (0 : Fin 1) (y 2) d) = q (ix4 (i 0) (i 1) (i 2) d))
    (h1 : ∀ k' d, x1 (ix4 (y 0) (0 : Fin 1) k' d) = k (ix4 (i 0) (i 1) k' d))
    (h3 : ∀ k', x3 (ix3 (0 : Fin 1) (y 2) k') = bias (ix3 (i 1) (i 2) k'))
    (hk : (y 3).val = (i 3).val) : blockW x0 x1 x3 y = attnArr q k bias i := by
  unfold blockW attnArr weights
  have e3 : (y 3 : Fin 2048) = (i 3 : Fin 2048) := Fin.ext hk
  simp only [h0, h1, h3, e3]

/-- The same for the output buffer and the attention output. -/
theorem blockO_eq (q k v : SQ.Idx → EReal) (bias : SB.Idx → EReal)
    (x0 : Vec Ideal S2x1x512x64 .f32) (x1 x2 : Vec Ideal S2x1x2048x64 .f32) (x3 : Vec Ideal S1x512x2048 .f32)
    (y : S2x1x512x64.Idx) (i : SQ.Idx)
    (h0 : ∀ d, x0 (ix4 (y 0) (0 : Fin 1) (y 2) d) = q (ix4 (i 0) (i 1) (i 2) d))
    (h1 : ∀ k' d, x1 (ix4 (y 0) (0 : Fin 1) k' d) = k (ix4 (i 0) (i 1) k' d))
    (h2 : ∀ k' d, x2 (ix4 (y 0) (0 : Fin 1) k' d) = v (ix4 (i 0) (i 1) k' d))
    (h3 : ∀ k', x3 (ix3 (0 : Fin 1) (y 2) k') = bias (ix3 (i 1) (i 2) k'))
    (hk : (y 3).val = (i 3).val) : blockO x0 x1 x2 x3 y = outArr q k v bias i := by
  unfold blockO outArr weights
  have e3 : (y 3 : Fin 64) = (i 3 : Fin 64) := Fin.ext hk
  simp only [h0, h1, h2, h3, e3]

end Cert.Attn.Step

end
-- ==== Proof.KernelArrays.lean ====
/-
  From the grid's steps to the whole arrays: after the run the kernel's two results are the attention output and the
  attention matrix of its arguments.

  The grid has one step per head h and tile qi of 512 query rows. Step (h, qi) reads the query block at block index
  (0, h, qi, 0), the key and value blocks at (0, h, 0, 0) — every key of the head, both batch entries — and the bias
  tile at (h, qi, 0), and writes back the output block and the weights block at (0, h, qi, 0). An element of a block
  sits in its array at block index × block size + its own coordinate on each axis, so the blocks a step reads are
  exactly the rows the entries it writes depend on; and every index (b, h, n, ·) of a result lies in the block of step
  (h, n / 512), so the write-backs cover both results.
-/
import proofs.«172684_j88888643158481_2_alg».proof.Proof.Gen.KernelIdeal.Value
import proofs.«172684_j88888643158481_2_alg».proof.Proof.KernelStep
import Idealize.ShloMosaic.Lib.Pipeline.Value

noncomputable section

namespace Cert.Attn.Arrays

open Cert.KernelIdeal Cert.KernelIdeal.Gen Cert.KernelIdeal.Value Idealize.ShloMosaic Idealize.ShloMosaic.TcCoe Idealize.SL.Sem
open Idealize.ShloMosaic.ValueIdx Cert.Attn Cert.Attn.Step
open Idealize.ShloMosaic.Pipeline (Dat)

variable (m : (ℓ : Loc nD τ sig) → Buf (Elt Ideal) ℓ) (ρ : Dev nD → PrngReg)

/-- The printed index maps, decided over the 64 steps: on the batch and feature axes every block index is 0, the key
    and value blocks do not move with the tile, and otherwise every window follows the weights window's head and tile. -/
theorem idx_facts : ∀ t : Fin cfg0.N,
    (win0_5.index t (0 : Fin 4) = 0 ∧ win0_5.index t (3 : Fin 4) = 0)
    ∧ (win0_4.index t (0 : Fin 4) = 0 ∧ win0_4.index t (1 : Fin 4) = win0_5.index t (1 : Fin 4)
        ∧ win0_4.index t (2 : Fin 4) = win0_5.index t (2 : Fin 4) ∧ win0_4.index t (3 : Fin 4) = 0)
    ∧ (win0_0.index t (0 : Fin 4) = 0 ∧ win0_0.index t (1 : Fin 4) = win0_5.index t (1 : Fin 4)
        ∧ win0_0.index t (2 : Fin 4) = win0_5.index t (2 : Fin 4) ∧ win0_0.index t (3 : Fin 4) = 0)
    ∧ (win0_1.index t (0 : Fin 4) = 0 ∧ win0_1.index t (1 : Fin 4) = win0_5.index t (1 : Fin 4)
        ∧ win0_1.index t (2 : Fin 4) = 0 ∧ win0_1.index t (3 : Fin 4) = 0)
    ∧ (win0_2.index t (0 : Fin 4) = 0 ∧ win0_2.index t (1 : Fin 4) = win0_5.index t (1 : Fin 4)
        ∧ win0_2.index t (2 : Fin 4) = 0 ∧ win0_2.index t (3 : Fin 4) = 0)
    ∧ (win0_3.index t (0 : Fin 3) = win0_5.index t (1 : Fin 4) ∧ win0_3.index t (1 : Fin 3) = win0_5.index t (2 : Fin 4)
        ∧ win0_3.index t (2 : Fin 3) = 0) :=
  (by decide +kernel : ∀ t : Fin grid0.N, _)

/-- Every head and tile is some step's. -/
theorem idx_onto : ∀ (h : Fin 16) (q : Fin 4), ∃ t : Fin cfg0.N,
    win0_5.index t (0 : Fin 4) = 0 ∧ win0_5.index t (1 : Fin 4) = h.val ∧ win0_5.index t (2 : Fin 4) = q.val
      ∧ win0_5.index t (3 : Fin 4) = 0 :=
  (by decide +kernel : ∀ (h : Fin 16) (q : Fin 4), ∃ t : Fin grid0.N,
    win0_5.index t (0 : Fin 4) = 0 ∧ win0_5.index t (1 : Fin 4) = h.val ∧ win0_5.index t (2 : Fin 4) = q.val
      ∧ win0_5.index t (3 : Fin 4) = 0)

/-! ## The attention matrix (output window 5) -/

/-- What step `t` writes back to the attention matrix is block `t` of the attention matrix of the arguments. -/
theorem flushed5_eq (c : Dev nD) (t : Fin cfg0.N) :
    (dats m 0 c).flushed 5 t = ((cfg0.win 5).blk t).view.read (Elt Ideal)
      (attnArr (V m c main_arg0) (V m c main_arg1) (V m c main_arg3)) := by
  refine (flushed5 m c t).trans ?_
  obtain ⟨⟨a0, a3⟩, -, ⟨q0, q1, q2, q3⟩, ⟨k0, k1, k2, k3⟩, -, ⟨b0, b1, b2⟩⟩ := idx_facts t
  funext j
  show out0_5 (iblk m c 0 t) (iblk m c 1 t) (iblk m c 2 t) (iblk m c 3 t) j
    = attnArr (V m c main_arg0) (V m c main_arg1) (V m c main_arg3) (((cfg0.win 5).blk t).view.emb j)
  have hj0 : (j 0).val < 2 := (j 0).isLt
  have hj1 : (j 1).val < 1 := (j 1).isLt
  have hj2 : (j 2).val < 512 := (j 2).isLt
  have hj3 : (j 3).val < 2048 := (j 3).isLt
  refine (out0_5_apply (iblk m c 0 t) (iblk m c 1 t) (iblk m c 2 t) (iblk m c 3 t) j).trans ?_
  refine blockW_eq _ _ _ (iblk m c 0 t) (iblk m c 1 t) (iblk m c 3 t) j _ (fun d => ?_) (fun k' d => ?_) (fun k' => ?_) ?_
  · show V m c main_arg0 (((cfg0.win 0).blk t).view.emb (ix4 (j 0) (0 : Fin 1) (j 2) d)) = V m c main_arg0 _
    refine congrArg (V m c main_arg0) (funext fun a => Fin.ext ?_)
    match a with
    | ⟨0, _⟩ => show win0_0.index t (0 : Fin 4) * 2 + 1 * (j 0).val = win0_5.index t (0 : Fin 4) * 2 + 1 * (j 0).val; omega
    | ⟨1, _⟩ => show win0_0.index t (1 : Fin 4) * 1 + 1 * 0 = win0_5.index t (1 : Fin 4) * 1 + 1 * (j 1).val; omega
    | ⟨2, _⟩ => show win0_0.index t (2 : Fin 4) * 512 + 1 * (j 2).val = win0_5.index t (2 : Fin 4) * 512 + 1 * (j 2).val; omega
    | ⟨3, _⟩ => show win0_0.index t (3 : Fin 4) * 64 + 1 * d.val = d.val; omega
  · show V m c main_arg1 (((cfg0.win 1).blk t).view.emb (ix4 (j 0) (0 : Fin 1) k' d)) = V m c main_arg1 _
    refine congrArg (V m c main_arg1) (funext fun a => Fin.ext ?_)
    match a with
    | ⟨0, _⟩ => show win0_1.index t (0 : Fin 4) * 2 + 1 * (j 0).val = win0_5.index t (0 : Fin 4) * 2 + 1 * (j 0).val; omega
    | ⟨1, _⟩ => show win0_1.index t (1 : Fin 4) * 1 + 1 * 0 = win0_5.index t (1 : Fin 4) * 1 + 1 * (j 1).val; omega
    | ⟨2, _⟩ => show win0_1.index t (2 : Fin 4) * 2048 + 1 * k'.val = k'.val; omega
    | ⟨3, _⟩ => show win0_1.index t (3 : Fin 4) * 64 + 1 * d.val = d.val; omega
  · show V m c main_arg3 (((cfg0.win 3).blk t).view.emb (ix3 (0 : Fin 1) (j 2) k')) = V m c main_arg3 _
    refine congrArg (V m c main_arg3) (funext fun a => Fin.ext ?_)
    match a with
    | ⟨0, _⟩ => show win0_3.index t (0 : Fin 3) * 1 + 1 * 0 = win0_5.index t (1 : Fin 4) * 1 + 1 * (j 1).val; omega
    | ⟨1, _⟩ => show win0_3.index t (1 : Fin 3) * 512 + 1 * (j 2).val = win0_5.index t (2 : Fin 4) * 512 + 1 * (j 2).val; omega
    | ⟨2, _⟩ => show win0_3.index t (2 : Fin 3) * 2048 + 1 * k'.val = k'.val; omega
  · show (j 3).val = win0_5.index t (3 : Fin 4) * 2048 + 1 * (j 3).val
    omega

/-- An index of the attention matrix is in step `t`'s block iff each coordinate is in the block's range on its axis. -/
theorem mem_blk5 (t : Fin cfg0.N) (i : S2x16x2048x2048.Idx) :
    i ∈ ((cfg0.win 5).blk t).view.set ↔ ∀ a : Fin 4, win0_5.index t a * S2x1x512x2048.size a ≤ (i a).val
      ∧ (i a).val < win0_5.index t a * S2x1x512x2048.size a + S2x1x512x2048.size a := by
  show i ∈ ((View.whole main_v0_1).slice (win0_5.rect t)).set ↔ _
  rw [View.set_slice_whole, Rect.mem_set_unit]
  exact Iff.rfl

/-- Every index of the attention matrix is in the block of the step of its head and tile. -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, e0, e1, e2, e3⟩ := idx_onto ⟨(i 1).val, hi1⟩ ⟨(i 2).val / 512, by omega⟩
  have e1' : win0_5.index t (1 : Fin 4) = (i 1).val := e1
  have e2' : win0_5.index t (2 : Fin 4) = (i 2).val / 512 := e2
  refine ⟨t, flush0_5 t, ?_⟩
  rw [mem_blk5]
  intro a
  match a with
  | ⟨0, _⟩ => show win0_5.index t (0 : Fin 4) * 2 ≤ (i 0).val ∧ (i 0).val < win0_5.index t (0 : Fin 4) * 2 + 2; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- After the run the second result is the attention matrix of the arguments. -/
theorem final5 (c : Dev nD) :
    (dats m 0 c).arrAt 5 cfg0.N = attnArr (V m c main_arg0) (V m c main_arg1) (V m c main_arg3) :=
  (dats m 0 c).arrAt_eq_of_cover 5 _ (fun t _ => flushed5_eq m c t) cover5

/-! ## The attention output (output window 4) -/

/-- What step `t` writes back to the output is block `t` of the attention output of the arguments. -/
theorem flushed4_eq (c : Dev nD) (t : Fin cfg0.N) :
    (dats m 0 c).flushed 4 t = ((cfg0.win 4).blk t).view.read (Elt Ideal)
      (outArr (V m c main_arg0) (V m c main_arg1) (V m c main_arg2) (V m c main_arg3)) := by
  refine (flushed4 m c t).trans ?_
  obtain ⟨⟨a0, a3⟩, ⟨o0, o1, o2, o3⟩, ⟨q0, q1, q2, q3⟩, ⟨k0, k1, k2, k3⟩, ⟨v0, v1, v2, v3⟩, ⟨b0, b1, b2⟩⟩ := idx_facts t
  funext j
  show out0_4 (iblk m c 0 t) (iblk m c 1 t) (iblk m c 2 t) (iblk m c 3 t) j
    = outArr (V m c main_arg0) (V m c main_arg1) (V m c main_arg2) (V m c main_arg3) (((cfg0.win 4).blk t).view.emb j)
  have hj0 : (j 0).val < 2 := (j 0).isLt
  have hj1 : (j 1).val < 1 := (j 1).isLt
  have hj2 : (j 2).val < 512 := (j 2).isLt
  have hj3 : (j 3).val < 64 := (j 3).isLt
  refine (out0_4_apply (iblk m c 0 t) (iblk m c 1 t) (iblk m c 2 t) (iblk m c 3 t) j).trans ?_
  refine blockO_eq _ _ _ _ (iblk m c 0 t) (iblk m c 1 t) (iblk m c 2 t) (iblk m c 3 t) j _
    (fun d => ?_) (fun k' d => ?_) (fun k' d => ?_) (fun k' => ?_) ?_
  · show V m c main_arg0 (((cfg0.win 0).blk t).view.emb (ix4 (j 0) (0 : Fin 1) (j 2) d)) = V m c main_arg0 _
    refine congrArg (V m c main_arg0) (funext fun a => Fin.ext ?_)
    match a with
    | ⟨0, _⟩ => show win0_0.index t (0 : Fin 4) * 2 + 1 * (j 0).val = win0_4.index t (0 : Fin 4) * 2 + 1 * (j 0).val; omega
    | ⟨1, _⟩ => show win0_0.index t (1 : Fin 4) * 1 + 1 * 0 = win0_4.index t (1 : Fin 4) * 1 + 1 * (j 1).val; omega
    | ⟨2, _⟩ => show win0_0.index t (2 : Fin 4) * 512 + 1 * (j 2).val = win0_4.index t (2 : Fin 4) * 512 + 1 * (j 2).val; omega
    | ⟨3, _⟩ => show win0_0.index t (3 : Fin 4) * 64 + 1 * d.val = d.val; omega
  · show V m c main_arg1 (((cfg0.win 1).blk t).view.emb (ix4 (j 0) (0 : Fin 1) k' d)) = V m c main_arg1 _
    refine congrArg (V m c main_arg1) (funext fun a => Fin.ext ?_)
    match a with
    | ⟨0, _⟩ => show win0_1.index t (0 : Fin 4) * 2 + 1 * (j 0).val = win0_4.index t (0 : Fin 4) * 2 + 1 * (j 0).val; omega
    | ⟨1, _⟩ => show win0_1.index t (1 : Fin 4) * 1 + 1 * 0 = win0_4.index t (1 : Fin 4) * 1 + 1 * (j 1).val; omega
    | ⟨2, _⟩ => show win0_1.index t (2 : Fin 4) * 2048 + 1 * k'.val = k'.val; omega
    | ⟨3, _⟩ => show win0_1.index t (3 : Fin 4) * 64 + 1 * d.val = d.val; omega
  · show V m c main_arg2 (((cfg0.win 2).blk t).view.emb (ix4 (j 0) (0 : Fin 1) k' d)) = V m c main_arg2 _
    refine congrArg (V m c main_arg2) (funext fun a => Fin.ext ?_)
    match a with
    | ⟨0, _⟩ => show win0_2.index t (0 : Fin 4) * 2 + 1 * (j 0).val = win0_4.index t (0 : Fin 4) * 2 + 1 * (j 0).val; omega
    | ⟨1, _⟩ => show win0_2.index t (1 : Fin 4) * 1 + 1 * 0 = win0_4.index t (1 : Fin 4) * 1 + 1 * (j 1).val; omega
    | ⟨2, _⟩ => show win0_2.index t (2 : Fin 4) * 2048 + 1 * k'.val = k'.val; omega
    | ⟨3, _⟩ => show win0_2.index t (3 : Fin 4) * 64 + 1 * d.val = d.val; omega
  · show V m c main_arg3 (((cfg0.win 3).blk t).view.emb (ix3 (0 : Fin 1) (j 2) k')) = V m c main_arg3 _
    refine congrArg (V m c main_arg3) (funext fun a => Fin.ext ?_)
    match a with
    | ⟨0, _⟩ => show win0_3.index t (0 : Fin 3) * 1 + 1 * 0 = win0_4.index t (1 : Fin 4) * 1 + 1 * (j 1).val; omega
    | ⟨1, _⟩ => show win0_3.index t (1 : Fin 3) * 512 + 1 * (j 2).val = win0_4.index t (2 : Fin 4) * 512 + 1 * (j 2).val; omega
    | ⟨2, _⟩ => show win0_3.index t (2 : Fin 3) * 2048 + 1 * k'.val = k'.val; omega
  · show (j 3).val = win0_4.index t (3 : Fin 4) * 64 + 1 * (j 3).val
    omega

/-- An index of the output is in step `t`'s block iff each coordinate is in the block's range on its axis. -/
theorem mem_blk4 (t : Fin cfg0.N) (i : S2x16x2048x64.Idx) :
    i ∈ ((cfg0.win 4).blk t).view.set ↔ ∀ a : Fin 4, win0_4.index t a * S2x1x512x64.size a ≤ (i a).val
      ∧ (i a).val < win0_4.index t a * S2x1x512x64.size a + S2x1x512x64.size a := by
  show i ∈ ((View.whole main_v0_0).slice (win0_4.rect t)).set ↔ _
  rw [View.set_slice_whole, Rect.mem_set_unit]
  exact Iff.rfl

/-- Every index of the output is in the block of the step of its head and tile. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, e0, e1, e2, e3⟩ := idx_onto ⟨(i 1).val, hi1⟩ ⟨(i 2).val / 512, by omega⟩
  have e1' : win0_5.index t (1 : Fin 4) = (i 1).val := e1
  have e2' : win0_5.index t (2 : Fin 4) = (i 2).val / 512 := e2
  obtain ⟨-, ⟨o0, o1, o2, o3⟩, -⟩ := idx_facts t
  refine ⟨t, flush0_4 t, ?_⟩
  rw [mem_blk4]
  intro a
  match a with
  | ⟨0, _⟩ => show win0_4.index t (0 : Fin 4) * 2 ≤ (i 0).val ∧ (i 0).val < win0_4.index t (0 : Fin 4) * 2 + 2; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- After the run the first result is the attention output of the arguments. -/
theorem final4 (c : Dev nD) :
    (dats m 0 c).arrAt 4 cfg0.N = outArr (V m c main_arg0) (V m c main_arg1) (V m c main_arg2) (V m c main_arg3) :=
  (dats m 0 c).arrAt_eq_of_cover 4 _ (fun t _ => flushed4_eq m c t) cover4

/-! ## The run, read -/

/-- Every weakly fair execution of the kernel terminates with its first result at the attention output and its second at
    the attention matrix of the arguments, the arguments unchanged. -/
theorem run : θ_run defs (onTc (τ := τ) (main (F := Ideal))) ⟨m, fun _ => 0, ρ⟩ fun r => ∀ c : Dev nD,
      r.2.mem ((c : Thread nD τ).loc main_v0_0)
        = outArr (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = attnArr (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.Attn.Arrays

end
-- ==== Proof.LibRowMax4.lean ====
/-
  The host's reduction by `max` over the last axis of a rank-4 array of extended reals from a scalar initial value,
  read at an index (p, q, r): the fold of `max` over the entries (p, q, r, ·), started from the initial value.
-/
import Idealize.ShloMosaic.PureOps.Ideal.Laws
import Idealize.ShloMosaic.Lib.ValueIdx

noncomputable section

namespace Cert.Lib.RowMax4

open Idealize.ShloMosaic Idealize.ShloMosaic.ValueIdx

/-- The host's maximum over the last axis of an `[a, b, c, d]` array, read at `(p, q, r)`. -/
theorem hostRowMax4_apply {a b c d : ℕ} {φ : FTy} (x : FVec Ideal ⟨4, ![a, b, c, d]⟩ φ) (init : (⟨0, ![]⟩ : Shape).Idx → Ideal φ)
    (h' : (⟨4, ![a, b, c, d]⟩ : Shape).ReducesTo [3] ⟨3, ![a, b, c]⟩) (h : (⟨4, ![a, b, c, d]⟩ : Shape).Reduces [3] ⟨3, ![a, b, c]⟩)
    (hu : 0 < (⟨0, ![]⟩ : Shape).numel) (p : Fin a) (q : Fin b) (r : Fin c) :
    Host.reduce FloatOps.maximumf x init h' hu (ix3 p q r)
      = (Finset.univ : Finset (Fin d)).fold max (init ix0) (fun k => x (ix4 p q r k)) := by
  refine (Host.reduce_eq_fold_single FloatOps.maximumf x init h' h hu (ix3 p q r)).trans ?_
  have e0 : init (Shape.Idx.first hu) = init ix0 := congrArg init (funext fun ax => ax.elim0)
  rw [e0]
  exact congrArg (fun f : Fin d → EReal => (Finset.univ : Finset (Fin d)).fold max (init ix0) f)
    (funext fun k => congrArg x (funext fun ax => Fin.ext (by
      match ax with
      | ⟨0, _⟩ => rfl
      | ⟨1, _⟩ => rfl
      | ⟨2, _⟩ => rfl
      | ⟨3, _⟩ => rfl)))

end Cert.Lib.RowMax4

end
-- ==== Proof.RefAttn.lean ====
/-
  The reference's two results are the attention weights and the attention output of the specification.

  Read one operation at a time, the reference's score at (b, h, n, m) is the contraction of query row (b, h, n) with key
  row (b, h, m) over the 64 features, divided by √64, plus the bias at (h, n, m); dividing by √64 = 8 is multiplying by
  1/8 on every extended real. Its row maximum is a fold of `max` from −∞ over the key axis — taking the maximum with −∞
  once more changes nothing —, its normaliser is 0 plus the sum of the shifted exponentials along the same axis, and its
  output contracts the weights with the value rows over the key axis.
-/
import proofs.«172684_j88888643158481_2_alg».proof.Proof.Gen.ReferenceIdeal.Read
import proofs.«172684_j88888643158481_2_alg».proof.Proof.AttnSpec
import proofs.«172684_j88888643158481_2_alg».proof.Proof.LibRowMax
import proofs.«172684_j88888643158481_2_alg».proof.Proof.LibRowMax4

noncomputable section

namespace Cert.Attn.Ref

open Cert.ReferenceIdeal Cert.ReferenceIdeal.Gen Cert.ReferenceIdeal.Read Idealize.ShloMosaic Idealize.ShloMosaic.ValueIdx Cert.Attn

variable (x0 x1 x2 : (⟨S2x16x2048x64, .f32⟩ : BufTy).Contents (Elt Ideal)) (x3 : (⟨S16x2048x2048, .f32⟩ : BufTy).Contents (Elt Ideal))

/-- The reference's scores, entry by entry. -/
theorem score_apply (b : Fin 2) (h : Fin 16) (n m : Fin 2048) :
    val_main_v6 (F := Ideal) x0 x1 x3 (ix4 b h n m)
      = scoreRow (fun d => x0 (ix4 b h n d)) (fun k' d => x1 (ix4 b h k' d)) (fun k' => x3 (ix3 h n k')) m := by
  have el : ∀ k : Fin 64, lidx_main_v0 (ix4 b h n m) k = ix4 b h n k := fun k => funext fun a => Fin.ext (by
    match a with | ⟨0, _⟩ => rfl | ⟨1, _⟩ => rfl | ⟨2, _⟩ => rfl | ⟨3, _⟩ => rfl)
  have er : ∀ k : Fin 64, ridx_main_v0 (ix4 b h n m) k = ix4 b h m k := fun k => funext fun a => Fin.ext (by
    match a with | ⟨0, _⟩ => rfl | ⟨1, _⟩ => rfl | ⟨2, _⟩ => rfl | ⟨3, _⟩ => rfl)
  have eb : idx_main_v4 (idx_main_v5 (ix4 b h n m)) = ix3 h n m := funext fun a => Fin.ext (by
    match a with | ⟨0, _⟩ => rfl | ⟨1, _⟩ => rfl | ⟨2, _⟩ => rfl)
  rw [val_main_v6_apply, val_main_v3_apply, val_main_v0_apply, val_main_v2_apply, val_main_v1_apply, val_main_cst_apply,
    val_main_v5_apply, val_main_v4_apply, eb]
  simp only [el, er]
  show Ideal.div _ (Ideal.sqrt (Ideal.ofBits .f32 0x42800000#32)) + _ = _
  rw [div_sqrt_64]
  rfl

/-- The reference's row maximum: the fold of `max` from −∞ over the scores of the row. -/
theorem rowmax_apply (b : Fin 2) (h : Fin 16) (n : Fin 2048) :
    val_main_v9 (F := Ideal) x0 x1 x3 (ix3 b h n)
      = (Finset.univ : Finset (Fin 2048)).fold max (Ideal.ofBits .f32 0xFF800000#32)
          (fun k' => val_main_v6 (F := Ideal) x0 x1 x3 (ix4 b h n k')) := by
  rw [val_main_v9_apply, val_main_v8_apply, val_main_cst_1_apply]
  unfold val_main_v7
  rw [Cert.Lib.RowMax4.hostRowMax4_apply _ _ reducesTo_S2x16x2048x2048_S2x16x2048_d3 (by decide) h_S_ b h n,
    val_main_cst_0_apply]
  exact Cert.Lib.RowMax.max_fold_self _ _

/-- The reference's shifted exponentials. -/
theorem exp_apply (b : Fin 2) (h : Fin 16) (n m : Fin 2048) :
    val_main_v13 (F := Ideal) x0 x1 x3 (ix4 b h n m)
      = Ideal.exp (scoreRow (fun d => x0 (ix4 b h n d)) (fun k' d => x1 (ix4 b h k' d)) (fun k' => x3 (ix3 h n k')) m
          - (Finset.univ : Finset (Fin 2048)).fold max (Ideal.ofBits .f32 0xFF800000#32)
              (scoreRow (fun d => x0 (ix4 b h n d)) (fun k' d => x1 (ix4 b h k' d)) (fun k' => x3 (ix3 h n k')))) := by
  have e : idx_main_v10 (idx_main_v11 (ix4 b h n m)) = ix3 b h n := funext fun a => Fin.ext (by
    match a with | ⟨0, _⟩ => rfl | ⟨1, _⟩ => rfl | ⟨2, _⟩ => rfl)
  rw [val_main_v13_apply, val_main_v12_apply, val_main_v11_apply, val_main_v10_apply, e, rowmax_apply]
  simp only [score_apply]
  rfl

/-- The reference's second result is the attention matrix. -/
theorem attn_eq : val_main_v17 (F := Ideal) x0 x1 x3 = attnArr x0 x1 x3 := by
  funext i
  obtain ⟨b, h, n, m, rfl⟩ : ∃ (b : Fin 2) (h : Fin 16) (n m : Fin 2048), i = ix4 b h n m := ⟨i 0, i 1, i 2, i 3, eq_ix4 i⟩
  have e : idx_main_v15 (idx_main_v16 (ix4 b h n m)) = ix3 b h n := funext fun a => Fin.ext (by
    match a with | ⟨0, _⟩ => rfl | ⟨1, _⟩ => rfl | ⟨2, _⟩ => rfl)
  have e14 : ∀ k : Fin 2048, idx_main_v14 (ix3 b h n) k = ix4 b h n k := fun k => funext fun a => Fin.ext (by
    match a with | ⟨0, _⟩ => rfl | ⟨1, _⟩ => rfl | ⟨2, _⟩ => rfl | ⟨3, _⟩ => rfl)
  rw [val_main_v17_apply, val_main_v16_apply, val_main_v15_apply, e, val_main_v14_apply, val_main_cst_2_apply]
  simp only [e14, exp_apply]
  show Ideal.div _ (Ideal.ofBits .f32 0x00000000#32 + _) = _
  rw [Ideal.ofBits_zero_f32, zero_add]
  rfl

/-- The reference's first result is the attention output. -/
theorem out_eq : val_main_v18 (F := Ideal) x0 x1 x2 x3 = outArr x0 x1 x2 x3 := by
  funext i
  obtain ⟨b, h, n, d, rfl⟩ : ∃ (b : Fin 2) (h : Fin 16) (n : Fin 2048) (d : Fin 64), i = ix4 b h n d := ⟨i 0, i 1, i 2, i 3, eq_ix4 i⟩
  have el : ∀ k : Fin 2048, lidx_main_v18 (ix4 b h n d) k = ix4 b h n k := fun k => funext fun a => Fin.ext (by
    match a with | ⟨0, _⟩ => rfl | ⟨1, _⟩ => rfl | ⟨2, _⟩ => rfl | ⟨3, _⟩ => rfl)
  have er : ∀ k : Fin 2048, ridx_main_v18 (ix4 b h n d) k = ix4 b h k d := fun k => funext fun a => Fin.ext (by
    match a with | ⟨0, _⟩ => rfl | ⟨1, _⟩ => rfl | ⟨2, _⟩ => rfl | ⟨3, _⟩ => rfl)
  rw [val_main_v18_apply, attn_eq]
  simp only [el, er]
  rfl

end Cert.Attn.Ref

end
-- ==== Proof.lean ====
/-
  Scaled dot-product attention with an additive relative-position bias, computed tile by tile on the TensorCore,
  against its plain array formulation: both return the attention output and the attention matrix.

  The mathematics. For batch entry b, head h and query position n the scores are
  s_m = (∑_d Q[b,h,n,d] · K[b,h,m,d]) · c + bias[h,n,m], the weights the softmax of s along m in its shifted form
  exp(s_m − max s) / ∑_m' exp(s_m' − max s), and the output ∑_m w_m · V[b,h,m,d]. The kernel scales by the constant
  1/8; the reference divides by √64. On the extended reals, dividing by the real 8 is multiplying by 1/8 whatever the
  dividend, so the two scores are one function and finiteness of the inputs is never used. Everything after the scores —
  the maximum folded from −∞, the subtraction, the exponential, the row sum from 0, the quotient, the contraction with
  the values — is the same expression on both sides once each side is read entry by entry: the kernel's per-row
  reductions over a tile's 2048 lanes and the reference's reductions over the last axis range over the same keys.

  The kernel's grid has one step per head and tile of 512 query rows, each step holding both batch entries; its
  write-backs cover both results, and the block a step writes depends on exactly the rows the step has staged.
-/
import proofs.«172684_j88888643158481_2_alg».proof.Defs
import proofs.«172684_j88888643158481_2_alg».proof.Proof.Gen.Kernel
import proofs.«172684_j88888643158481_2_alg».proof.Proof.Gen.Kernel.Skeleton
import proofs.«172684_j88888643158481_2_alg».proof.Proof.Gen.Kernel.Launch
import proofs.«172684_j88888643158481_2_alg».proof.Proof.Gen.Kernel.Points
import proofs.«172684_j88888643158481_2_alg».proof.Proof.Gen.Kernel.Frame
import proofs.«172684_j88888643158481_2_alg».proof.Proof.Gen.KernelIdeal
import proofs.«172684_j88888643158481_2_alg».proof.Proof.Gen.KernelIdeal.Skeleton
import proofs.«172684_j88888643158481_2_alg».proof.Proof.Gen.KernelIdeal.Launch
import proofs.«172684_j88888643158481_2_alg».proof.Proof.Gen.KernelIdeal.Points
import proofs.«172684_j88888643158481_2_alg».proof.Proof.Gen.KernelIdeal.Frame
import proofs.«172684_j88888643158481_2_alg».proof.Proof.Gen.ReferenceIdeal
import proofs.«172684_j88888643158481_2_alg».proof.Proof.Gen.Pre_finite_inputs
import proofs.«172684_j88888643158481_2_alg».proof.Proof.Gen.KernelIdeal.Value
import proofs.«172684_j88888643158481_2_alg».proof.Proof.Gen.ReferenceIdeal.Run
import proofs.«172684_j88888643158481_2_alg».proof.Proof.Gen.ReferenceIdeal.Read
import proofs.«172684_j88888643158481_2_alg».proof.Proof.KernelArrays
import proofs.«172684_j88888643158481_2_alg».proof.Proof.RefAttn
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments alone: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- On the extended reals both programs end with the attention output and the attention matrix of their arguments. -/
theorem algebraic : Cert.algebraic_KernelIdeal_ReferenceIdeal := by
  intro m ρ m' ρ' _ hagree
  refine ⟨fun c => Cert.Attn.outArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    fun c => Cert.Attn.attnArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3)),
    Cert.Attn.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.Attn.Ref.out_eq,
      (hagree c).1, (hagree c).2.1, (hagree c).2.2.1, (hagree c).2.2.2]
  · rw [(h c).2.1, Cert.ReferenceIdeal.Read.val_main_v17_eq, Cert.Attn.Ref.attn_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
